-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : IVec S1600000 32) (main_arg1 : IVec S1600000 32) (main_arg2 : FVec F S1600000 .f32) (main_arg3 : FVec F S50000x128 .f32) (main_arg4 : FVec F S128x128 .f32) (main_arg5 : FVec F S128 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1600000 : Shape := ⟨1, ![1600000]⟩
abbrev S50000x128 : Shape := ⟨2, ![50000, 128]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 24
  | .vmem => 6
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S50000x128, .f32⟩
  | .hbm, ⟨20, _⟩ => ⟨S1600000x1, .i32⟩
  | .hbm, ⟨21, _⟩ => ⟨S50000x128, .f32⟩
  | .hbm, ⟨22, _⟩ => ⟨S1x128, .f32⟩
  | .hbm, ⟨23, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1600000 : Shape := ⟨1, ![1600000]⟩
abbrev S50000x128 : Shape := ⟨2, ![50000, 128]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S50000x128, .f32⟩
  | .hbm, ⟨20, _⟩ => ⟨S1600000x1, .i32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostPrefix.lean ====
/-
  What the host operations of the kernel program leave in the arrays the region reads: the sparse aggregation of the
  arguments (each edge e adds `vals e` times row `col e` of `features` to row `row e` of a zero array) for the
  first window, and the bias laid as one row for the third.
-/
import proofs.«137030_j58411555225955_1_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

/-! ## What the host leaves for the region -/

/-- The sparse aggregation: each edge e contributes `vals e` times row `col e` of `features` (a negative index
    wrapped once) to row `row e` of a zero array. It is the same expression in both programs and is never opened. -/
def agg (x0 x1 : (⟨S1600000, .i32⟩ : BufTy).Contents (Elt Ideal)) (x2 : (⟨S1600000, .f32⟩ : BufTy).Contents (Elt Ideal))
    (x3 : (⟨S50000x128, .f32⟩ : BufTy).Contents (Elt Ideal)) : (⟨S50000x128, .f32⟩ : BufTy).Contents (Elt Ideal) :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 x0)
    (mulf (broadcastInDim S1600000x128 ![0, 1] bcast_S1600000x1_S1600000x128_0_1 (broadcastInDim S1600000x1 ![0] bcast_S1600000_S1600000x1_0 x2))
      (Host.gather gather_S50000x128_S1600000x1_S1600000x128_1_0_n_n_0_1_1128 x3
        (broadcastInDim S1600000x1 ![0] bcast_S1600000_S1600000x1_0
          (select (cmpi .slt x1 (broadcastInDim S1600000 ![] bcast_S_S1600000 (constantI S_ 32 0#32)))
            (addi x1 (broadcastInDim S1600000 ![] bcast_S_S1600000 (constantI S_ 32 50000#32))) x1))))

/-- The array the first window reads is the sparse aggregation of the arguments. -/
theorem entry_agg (c : Dev nD) :
    (V m c main_v12 : S50000x128.Idx → EReal)
      = agg (m ((c : Thread nD τ).loc main_arg0)) (m ((c : Thread nD τ).loc main_arg1)) (m ((c : Thread nD τ).loc main_arg2)) (m ((c : Thread nD τ).loc main_arg3)) := by
  dsimp only [Gen.V, Gen.hostOps0]
  after_results
  rfl

/-- The array the third window reads is the bias laid as one row. -/
theorem entry_bias (c : Dev nD) :
    (V m c main_v13 : S1x128.Idx → EReal) = shapeCast S1x128 (m ((c : Thread nD τ).loc main_arg5)) shapeCasts_S128_S1x128 := by
  dsimp only [Gen.V, Gen.hostOps0]
  after_results
  rfl

end Cert.KernelIdeal.Hand

end
-- ==== Proof.Blocks.lean ====
/-
  The blocks a grid point of the region reads, as entries of the arrays the host left.

  The grid has 10 points. At point t the first window holds rows 5000 t … 5000 t + 4999 of the sparse aggregation;
  the second window holds the whole weight at every point; the third holds the bias row at every point, whose entry
  (0, q) is the bias at q.
-/
import proofs.«137030_j58411555225955_1_alg».proof.Proof.HostPrefix
import proofs.«137030_j58411555225955_1_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

/-! ## The blocks a grid point reads -/

theorem hz : (![0, 0] : Fin 2 → Nat) = fun _ => 0 := funext fun a => by fin_cases a <;> rfl

/-- The block indices at point t, decided over the ten points: the aggregated array and the result move by rows with
    t; the weight and the bias row stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first window's block at point t, read off ANY array of the aggregation's shape, is rows
    5000 t … 5000 t + 4999 of that array. -/
theorem read_rows (X : S50000x128.Idx → EReal) (t : Fin cfg0.N) (x : S5000x128.Idx) (i : S50000x128.Idx)
    (h0 : (i 0).val = 5000 * t.val + (x 0).val) (h1 : (i 1).val = (x 1).val) :
    (((cfg0.win 0).blk t).view.read (Elt Ideal) X : Vec Ideal S5000x128 .f32) x = X i := by
  obtain ⟨e0, e1, -⟩ := idx_facts t
  rw [View.read_apply]
  refine congrArg X (funext fun a => Fin.ext ?_)
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- Point t's block of the aggregated array is rows 5000 t … 5000 t + 4999 of the sparse aggregation. -/
theorem blk_agg (c : Dev nD) (t : Fin cfg0.N) (x : S5000x128.Idx) (i : S50000x128.Idx)
    (h0 : (i 0).val = 5000 * t.val + (x 0).val) (h1 : (i 1).val = (x 1).val) :
    (iblk m c 0 t : Vec Ideal S5000x128 .f32) x
      = agg (m ((c : Thread nD τ).loc main_arg0)) (m ((c : Thread nD τ).loc main_arg1)) (m ((c : Thread nD τ).loc main_arg2)) (m ((c : Thread nD τ).loc main_arg3)) i := by
  rw [← entry_agg m c]
  exact read_rows (V m c main_v12) t x i h0 h1

/-- Every point's block of the weight is the whole weight. -/
theorem blk_weight (c : Dev nD) (t : Fin cfg0.N) (x : S128x128.Idx) :
    (iblk m c 1 t : Vec Ideal S128x128 .f32) x = (m ((c : Thread nD τ).loc main_arg4) : S128x128.Idx → EReal) x := by
  obtain ⟨-, -, e0, e1, -⟩ := idx_facts t
  rw [← V_main_arg4 m c]
  unfold iblk
  rw [View.read_apply]
  refine congrArg (V m c main_arg4 : S128x128.Idx → EReal) (funext fun a => Fin.ext ?_)
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- Every point's block of the bias row, at (0, q), is the bias at q. -/
theorem blk_bias (c : Dev nD) (t : Fin cfg0.N) (q : Fin 128) :
    (iblk m c 2 t : Vec Ideal S1x128 .f32) (ix2 0 q) = (m ((c : Thread nD τ).loc main_arg5) : S128.Idx → EReal) (ix1 q) := by
  obtain ⟨-, -, -, -, e0, e1, -⟩ := idx_facts t
  refine Eq.trans ?_ (shapeCast_a_1a_apply (m ((c : Thread nD τ).loc main_arg5) : S128.Idx → EReal) shapeCasts_S128_S1x128 0 q)
  rw [← entry_bias m c]
  unfold iblk
  rw [View.read_apply]
  refine congrArg (V m c main_v13 : S1x128.Idx → EReal) (funext fun a => Fin.ext ?_)
  match a with
  | ⟨0, _⟩ => show win0_2.index t (0 : Fin 2) * 1 + 1 * 0 = 0; rw [e0]
  | ⟨1, _⟩ => show win0_2.index t (1 : Fin 2) * 128 + 1 * q.val = q.val; rw [e1]; omega

end Cert.KernelIdeal.Hand

end
-- ==== Proof.Payload.lean ====
/-
  What the kernel body computes from the three blocks it loads, read at one entry.

  At a grid point the body loads a block `a` of 5000 rows of the aggregated array, the whole 128 × 128 weight `w` and
  the bias laid as one row `b`. It narrows `a` and `w` to a shorter float format (the identity on exact values),
  multiplies them into a zero accumulator, spreads the bias row over the 5000 rows and adds. So at entry (p, q)

      body a w b (p, q) = (∑ k < 128, a (p, k) · w (k, q)) + b (0, q).

  The product's contraction runs over one axis of extent 128, so its index set is re-indexed by `Fin 128`.
-/
import proofs.«137030_j58411555225955_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.KernelIdeal.Hand

open Cert.KernelIdeal Cert.KernelIdeal.Gen

/-- Row coordinate of the left operand's index: the output's row. -/
theorem lhs_row (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- Column coordinate of the left operand's index: the contracted coordinate. -/
theorem lhs_col (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r

/-- Row coordinate of the right operand's index: the contracted coordinate. -/
theorem rhs_row (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r

/-- Column coordinate of the right operand's index: the output's column. -/
theorem rhs_col (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of the block and the weight into a zero accumulator, at entry (p, q): the inner product of row p of
    the block with column q of the weight. -/
theorem matmul_zero_apply (a : FVec Ideal S5000x128 .bf16) (w : FVec Ideal S128x128 .bf16) (p : Fin 5000) (q : Fin 128) :
    (matmul dot_S5000x128_S128x128_S5000x128_1_0_0_1_n_n none a w (constant S5000x128 .f32 0x00000000#32) : FVec Ideal S5000x128 .f32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun d => Fin.ext (by
      match d with
      | ⟨0, _⟩ => exact lhs_row _ _
      | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun d => Fin.ext (by
      match d with
      | ⟨0, _⟩ => exact (rhs_row _ _).trans hk
      | ⟨1, _⟩ => exact rhs_col _ _)
  rw [el, er]

/-- The bias row spread over the 5000 rows, at entry (p, q), is the row's entry (0, q). -/
theorem bias_rows_apply (b : FVec Ideal S1x128 .f32) (p : Fin 5000) (q : Fin 128) :
    (broadcastTo S5000x128 b broadcasts_S1x128_S5000x128 : FVec Ideal S5000x128 .f32) (ix2 p q) = b (ix2 0 q) :=
  broadcastTo_apply b broadcasts_S1x128_S5000x128 (ix2 p q) (ix2 0 q) (fun d => match d with
    | ⟨0, _⟩ => by show (0 : Nat) = if (1 : Nat) = 1 then 0 else p.val; rw [if_pos rfl]
    | ⟨1, _⟩ => by show q.val = if (128 : Nat) = 1 then 0 else q.val; rw [if_neg (by decide)])

/-- The body's stored value at entry (p, q): row p of the block against column q of the weight, plus the bias at q. -/
theorem body_apply (a : Vec Ideal S5000x128 .f32) (w : Vec Ideal S128x128 .f32) (b : Vec Ideal S1x128 .f32) (p : Fin 5000) (q : Fin 128) :
    k0_pay1 (F := Ideal) a w b (ix2 p q) = (∑ k : Fin 128, a (ix2 p k) * w (ix2 k q)) + b (ix2 0 q) := by
  unfold k0_pay1
  simp only [shapeCast_self]
  refine (addf_apply _ _ (ix2 p q)).trans ?_
  rw [matmul_zero_apply, bias_rows_apply]
  rfl

end Cert.KernelIdeal.Hand

end
-- ==== Proof.Spec.lean ====
/-
  The dense layer both programs apply after the sparse aggregation, as ONE function of three arrays.

  Given an array `agg` of 50000 rows and 128 columns, a 128 × 128 matrix `w` and a vector `b` of length 128,
  entry (r, c) of the result is the inner product of row r of `agg` with column c of `w`, plus `b c`:

      linearBias agg w b (r, c) = (∑ k < 128, agg (r, k) · w (k, c)) + b c

  over the extended reals. Nothing here needs a finite entry: the sum and the one addition are the same expression
  on both sides of the certificate, so no law of arithmetic is used to join them.
-/
import Idealize.ShloMosaic.PureOps.Ideal
import Idealize.ShloMosaic.Lib.ValueIdx

noncomputable section

open scoped BigOperators
open Idealize.ShloMosaic Idealize.ShloMosaic.ValueIdx

namespace Cert.Spec

/-- Every row of `agg` times the matrix `w`, plus the bias vector `b` added to each row. -/
def linearBias (agg : (⟨2, ![50000, 128]⟩ : Shape).Idx → EReal) (w : (⟨2, ![128, 128]⟩ : Shape).Idx → EReal)
    (b : (⟨1, ![128]⟩ : Shape).Idx → EReal) : (⟨2, ![50000, 128]⟩ : Shape).Idx → EReal :=
  fun i => (∑ k : Fin 128, agg (ix2 (i 0) k) * w (ix2 k (i 1))) + b (ix1 (i 1))

/-- The definition read at an index given by its two coordinates. -/
theorem linearBias_apply (agg : (⟨2, ![50000, 128]⟩ : Shape).Idx → EReal) (w : (⟨2, ![128, 128]⟩ : Shape).Idx → EReal)
    (b : (⟨1, ![128]⟩ : Shape).Idx → EReal) (r : Fin 50000) (c : Fin 128) :
    linearBias agg w b (ix2 r c) = (∑ k : Fin 128, agg (ix2 r k) * w (ix2 k c)) + b (ix1 c) := rfl

end Cert.Spec

end
-- ==== Proof.KernelValue.lean ====
/-
  What the kernel's result array holds after the run: the dense layer `Cert.Spec.linearBias` of the sparse
  aggregation, the weight and the bias.

  Before the region the host computes the sparse aggregation `agg` of the arguments (rows of `features` gathered by
  `col`, scaled by `vals`, scatter-added by `row`) and lays the bias as one row. The grid has 10 points; point t
  reads rows 5000 t … 5000 t + 4999 of `agg`, the whole weight and the bias row, and writes the same rows of the
  result. Since the body's value at (p, q) is (∑ k, block (p, k) · weight (k, q)) + bias q (`body_apply`), what point
  t writes back is rows 5000 t … 5000 t + 4999 of `linearBias agg weight bias`; row r lies in the block of point
  r / 5000, so the ten blocks cover the array and the array ends equal to that function.
-/
import proofs.«137030_j58411555225955_1_alg».proof.Proof.Blocks
import proofs.«137030_j58411555225955_1_alg».proof.Proof.Payload
import proofs.«137030_j58411555225955_1_alg».proof.Proof.Spec
import proofs.«137030_j58411555225955_1_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

/-! ## The result -/

/-- The dense layer of the aggregation, the weight and the bias: what the result array ends holding. -/
abbrev result (c : Dev nD) : Buf (Elt Ideal) ((c : Thread nD τ).loc main_v14) :=
  Cert.Spec.linearBias
    (agg (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg5))

/-! ## What a grid point writes back -/

/-- If a block's row j and the weight and bias blocks read the arrays `A`, `W`, `B` at the row and column of an
    index i, the body's value at j is the dense layer of those arrays at i. -/
theorem body_is_layer (a : Vec Ideal S5000x128 .f32) (w : Vec Ideal S128x128 .f32) (b : Vec Ideal S1x128 .f32)
    (A : S50000x128.Idx → EReal) (W : S128x128.Idx → EReal) (B : S128.Idx → EReal)
    (j : S5000x128.Idx) (i : S50000x128.Idx)
    (ha : ∀ k : Fin 128, a (ix2 (j 0) k) = A (ix2 (i 0) k))
    (hw : ∀ k : Fin 128, w (ix2 k (j 1)) = W (ix2 k (i 1)))
    (hb : b (ix2 0 (j 1)) = B (ix1 (i 1))) :
    k0_pay1 (F := Ideal) a w b j = Cert.Spec.linearBias A W B i := by
  refine ((congrArg (k0_pay1 (F := Ideal) a w b) (eq_ix2 j)).trans (body_apply a w b (j 0) (j 1))).trans ?_
  show _ = (∑ k : Fin 128, A (ix2 (i 0) k) * W (ix2 k (i 1))) + B (ix1 (i 1))
  rw [hb]
  exact congrArg (· + B (ix1 (i 1))) (Finset.sum_congr rfl fun k _ => by rw [ha k, hw k])

/-- A block function `X` written back through the result window at point t is block t of an array `G` as soon as
    `X` agrees entry by entry with `G` read through the block. -/
theorem cut_eq_read (X : Vec Ideal S5000x128 .f32) (G : S50000x128.Idx → EReal) (t : Fin cfg0.N)
    (h : ∀ j : S5000x128.Idx, X j = G (((cfg0.win 3).blk t).view.emb j)) :
    (cfg0.win 3).cut (grid0.coords t) X = ((cfg0.win 3).blk t).view.read (Elt Ideal) G :=
  funext fun j => h j

/-- What point t writes back is block t of `result`. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S5000x128) hz, View.ld_unit_zero (S := S128x128) hz, View.ld_unit_zero (S := S1x128) hz]
  refine cut_eq_read _ _ t (fun j => ?_)
  obtain ⟨-, -, -, -, -, -, e0, e1⟩ := idx_facts t
  have h0 : ((((cfg0.win 3).blk t).view.emb j) 0).val = 5000 * t.val + (j 0).val := by
    show win0_3.index t (0 : Fin 2) * 5000 + 1 * (j 0).val = _
    rw [e0]; omega
  have h1 : (((cfg0.win 3).blk t).view.emb j) 1 = j 1 := Fin.ext (by
    show win0_3.index t (1 : Fin 2) * 128 + 1 * (j 1).val = (j 1).val
    rw [e1]; omega)
  refine body_is_layer _ _ _
    (agg (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg5)) j _ (fun k => ?_) (fun k => ?_) ?_
  · exact blk_agg m c t _ _ h0 rfl
  · rw [h1]; exact blk_weight m c t _
  · rw [h1]; exact blk_bias m c t (j 1)

/-! ## The ten blocks cover the array -/

/-- An index is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Row r of the result lies in the block of point r / 5000. -/
theorem cover (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  obtain ⟨t, ht⟩ : ∃ t : Fin cfg0.N, t.val = (i 0).val / 5000 :=
    ⟨⟨(i 0).val / 5000, by show _ < grid0.N; rw [N_0]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The result array after the run is `result`. -/
theorem final (c : Dev nD) : (dats m 0 c).arrAt 3 cfg0.N = result m c :=
  (dats m 0 c).arrAt_eq_of_cover 3 (result m c) (fun t _ => flushed_eq m c t) cover

/-! ## The run -/

/-- Every weakly fair execution of the kernel program terminates with the result array at `result` and the
    arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Hand

end
-- ==== Proof.RefValue.lean ====
/-
  The reference's result, read one stage at a time, is the dense layer `Cert.Spec.linearBias` applied to its own
  sparse aggregation.

  The reference first builds `agg` (a gather of rows of `features`, each scaled by `vals`, scatter-added by `row`)
  and then computes `agg @ weight + bias`. At the exact instance the matrix product read at (r, c) is the sum over
  k of agg (r, k) · weight (k, c), and the bias — first laid as a row, then spread over all rows — read at (r, c) is
  bias c. So the result at (r, c) is exactly `linearBias agg weight bias (r, c)`; the aggregation itself is never
  opened.
-/
import proofs.«137030_j58411555225955_1_alg».proof.Proof.Gen.ReferenceIdeal.Read
import proofs.«137030_j58411555225955_1_alg».proof.Proof.Spec

noncomputable section

open scoped BigOperators
open Idealize.ShloMosaic Idealize.ShloMosaic.TcCoe Idealize.ShloMosaic.ValueIdx

namespace Cert.ReferenceIdeal.RefValue

open Cert.ReferenceIdeal Cert.ReferenceIdeal.Read

/-- The left operand of the product at output index `i` and contraction index `k` is read at (row of `i`, `k`). -/
theorem lidx_eq (i : S50000x128.Idx) (k : Fin 128) : lidx_main_v13 i k = ix2 (i 0) k :=
  funext fun a => Fin.ext (by match a with | ⟨0, _⟩ => rfl | ⟨1, _⟩ => rfl)

/-- The right operand is read at (`k`, column of `i`). -/
theorem ridx_eq (i : S50000x128.Idx) (k : Fin 128) : ridx_main_v13 i k = ix2 k (i 1) :=
  funext fun a => Fin.ext (by match a with | ⟨0, _⟩ => rfl | ⟨1, _⟩ => rfl)

/-- The bias, laid as one row and spread over the rows, is read at the column of `i`. -/
theorem bidx_eq (i : S50000x128.Idx) : idx_main_v14 (idx_main_v15 i) = ix1 (i 1) :=
  funext fun a => Fin.ext (by match a with | ⟨0, _⟩ => rfl)

/-- The reference's last stage is the dense layer of its aggregation stage, the weight and the bias. -/
theorem result_eq (x0 x1 : (⟨S1600000, .i32⟩ : BufTy).Contents (Elt Ideal)) (x2 : (⟨S1600000, .f32⟩ : BufTy).Contents (Elt Ideal))
    (x3 : (⟨S50000x128, .f32⟩ : BufTy).Contents (Elt Ideal)) (x4 : (⟨S128x128, .f32⟩ : BufTy).Contents (Elt Ideal))
    (x5 : (⟨S128, .f32⟩ : BufTy).Contents (Elt Ideal)) :
    val_main_v16 (F := Ideal) x0 x1 x2 x3 x4 x5
      = Cert.Spec.linearBias (val_main_v12 (F := Ideal) x0 x1 x2 x3) x4 x5 := by
  funext i
  rw [val_main_v16_apply, val_main_v13_apply, val_main_v15_apply, val_main_v14_apply]
  simp only [lidx_eq, ridx_eq, bidx_eq]
  rfl

end Cert.ReferenceIdeal.RefValue

end
-- ==== Proof.lean ====
/-
  The kernel (a sparse aggregation on the host followed by a tiled dense layer) against its reference
  (`agg @ weight + bias` with the same aggregation), over the extended reals.

  Both programs first compute the same sparse aggregation `agg` of the arguments. The kernel then walks 10 row
  blocks of 5000 rows; at each it multiplies the block by the whole weight into a zero accumulator and adds the bias
  row. The reference multiplies all 50000 rows at once and adds the bias spread over the rows. Entry (r, c) is on both
  sides (∑ k < 128, agg (r, k) · weight (k, c)) + bias c — the same sum and the same addition, so no arithmetic law
  joins them and the finiteness of the inputs is not used. The narrowing of the product's operands to a shorter float
  format is the identity on exact values.

  `Cert.KernelIdeal.Hand.run` reads the kernel's run to that function (Proof/KernelValue.lean over Proof/Payload.lean),
  `Cert.ReferenceIdeal.RefValue.result_eq` reads the reference's last stage to it (Proof/RefValue.lean); here the two
  aggregation expressions are identified and the five claims assembled. The idealized kernel is the printed kernel's own
  text, so the claim relating the two is trivially true.
-/
import proofs.«137030_j58411555225955_1_alg».proof.Defs
import proofs.«137030_j58411555225955_1_alg».proof.Proof.Gen.Kernel
import proofs.«137030_j58411555225955_1_alg».proof.Proof.Gen.Kernel.Skeleton
import proofs.«137030_j58411555225955_1_alg».proof.Proof.Gen.Kernel.Launch
import proofs.«137030_j58411555225955_1_alg».proof.Proof.Gen.Kernel.Points
import proofs.«137030_j58411555225955_1_alg».proof.Proof.Gen.Kernel.Frame
import proofs.«137030_j58411555225955_1_alg».proof.Proof.Gen.KernelIdeal
import proofs.«137030_j58411555225955_1_alg».proof.Proof.Gen.KernelIdeal.Skeleton
import proofs.«137030_j58411555225955_1_alg».proof.Proof.Gen.KernelIdeal.Launch
import proofs.«137030_j58411555225955_1_alg».proof.Proof.Gen.KernelIdeal.Points
import proofs.«137030_j58411555225955_1_alg».proof.Proof.Gen.KernelIdeal.Frame
import proofs.«137030_j58411555225955_1_alg».proof.Proof.Gen.ReferenceIdeal
import proofs.«137030_j58411555225955_1_alg».proof.Proof.Gen.Pre_finite_inputs
import proofs.«137030_j58411555225955_1_alg».proof.Proof.Gen.KernelIdeal.Value
import proofs.«137030_j58411555225955_1_alg».proof.Proof.Gen.ReferenceIdeal.Run
import proofs.«137030_j58411555225955_1_alg».proof.Proof.Gen.ReferenceIdeal.Read
import proofs.«137030_j58411555225955_1_alg».proof.Proof.KernelValue
import proofs.«137030_j58411555225955_1_alg».proof.Proof.RefValue
import Idealize.ShloMosaic.Adequacy
import Idealize.ShloMosaic.Init

noncomputable section

namespace Cert.Proof

open Idealize.ShloMosaic Idealize.ShloMosaic.TcCoe Idealize.SL.Sem

/-- The reference's aggregation stage and the kernel program's host aggregation are the same expression of the same
    four arrays. -/
theorem agg_eq (x0 x1 : (⟨Cert.ReferenceIdeal.S1600000, .i32⟩ : BufTy).Contents (Elt Ideal))
    (x2 : (⟨Cert.ReferenceIdeal.S1600000, .f32⟩ : BufTy).Contents (Elt Ideal))
    (x3 : (⟨Cert.ReferenceIdeal.S50000x128, .f32⟩ : BufTy).Contents (Elt Ideal)) :
    Cert.ReferenceIdeal.Read.val_main_v12 (F := Ideal) x0 x1 x2 x3 = Cert.KernelIdeal.Hand.agg x0 x1 x2 x3 := rfl

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays end at the dense layer of the shared aggregation, the weight and the bias. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v16_eq, Cert.ReferenceIdeal.RefValue.result_eq, agg_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
